-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S27x128x128 : Shape := ⟨3, ![27, 128, 128]⟩
abbrev S128 : Shape := ⟨1, ![128]⟩
abbrev S27x65536 : Shape := ⟨2, ![27, 65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S65536x128 .f32) (main_arg1 : FVec F S27x128x128 .f32) (main_arg2 : FVec F S128 .f32) (main_arg3 : IVec S27x65536 32) (main_arg4 : IVec S27x65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S27x128x128 .f32 := Host.absf main_arg1
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S65536x128 : Shape := ⟨2, ![65536, 128]⟩
abbrev S27x128x128 : Shape := ⟨3, ![27, 128, 128]⟩
abbrev S128 : Shape := ⟨1, ![128]⟩
abbrev S27x65536 : Shape := ⟨2, ![27, 65536]⟩
abbrev S_ : Shape := ⟨0, ![]⟩
abbrev S27x65536x1 : Shape := ⟨3, ![27, 65536, 1]⟩
abbrev S27x65536x128 : Shape := ⟨3, ![27, 65536, 128]⟩
abbrev S1x8192x128 : Shape := ⟨3, ![1, 8192, 128]⟩
abbrev S1x128x128 : Shape := ⟨3, ![1, 128, 128]⟩
abbrev S8192x128 : Shape := ⟨2, ![8192, 128]⟩
abbrev S128x128 : Shape := ⟨2, ![128, 128]⟩
abbrev S65537x128 : Shape := ⟨2, ![65537, 128]⟩
abbrev S1769472 : Shape := ⟨1, ![1769472]⟩
abbrev S1769472x128 : Shape := ⟨2, ![1769472, 128]⟩
abbrev S1769472x1 : Shape := ⟨2, ![1769472, 1]⟩
abbrev S1x128 : Shape := ⟨2, ![1, 128]⟩

abbrev nBuf : Space → Nat
  | .hbm => 34
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S128, .f32⟩
  | .hbm, ⟨3, _⟩ => ⟨S27x65536, .i32⟩
  | .hbm, ⟨4, _⟩ => ⟨S27x65536, .i32⟩
  | .hbm, ⟨5, _⟩ => ⟨S65536x128, .bf16⟩
  | .hbm, ⟨6, _⟩ => ⟨S_, .i32⟩
  | .hbm, ⟨7, _⟩ => ⟨S27x65536, .i32⟩
  | .hbm, ⟨8, _⟩ => ⟨S27x65536, .i1⟩
  | .hbm, ⟨9, _⟩ => ⟨S_, .i32⟩
  | .hbm, ⟨10, _⟩ => ⟨S27x65536, .i32⟩
  | .hbm, ⟨11, _⟩ => ⟨S27x65536, .i32⟩
  | .hbm, ⟨12, _⟩ => ⟨S27x65536, .i32⟩
  | .hbm, ⟨13, _⟩ => ⟨S27x65536x1, .i32⟩
  | .hbm, ⟨14, _⟩ => ⟨S27x65536x128, .bf16⟩
  | .hbm, ⟨15, _⟩ => ⟨S27x128x128, .bf16⟩
  | .hbm, ⟨16, _⟩ => ⟨S27x65536x128, .f32⟩
  | .hbm, ⟨17, _⟩ => ⟨S_, .f32⟩
  | .hbm, ⟨18, _⟩ => ⟨S65537x128, .f32⟩
  | .hbm, ⟨19, _⟩ => ⟨S1769472, .i32⟩
  | .hbm, ⟨20, _⟩ => ⟨S1769472x128, .f32⟩
  | .hbm, ⟨21, _⟩ => ⟨S_, .i32⟩
  | .hbm, ⟨22, _⟩ => ⟨S1769472, .i32⟩
  | .hbm, ⟨23, _⟩ => ⟨S1769472, .i1⟩
  | .hbm, ⟨24, _⟩ => ⟨S_, .i32⟩
  | .hbm, ⟨25, _⟩ => ⟨S1769472, .i32⟩
  | .hbm, ⟨26, _⟩ => ⟨S1769472, .i32⟩
  | .hbm, ⟨27, _⟩ => ⟨S1769472, .i32⟩
  | .hbm, ⟨28, _⟩ => ⟨S1769472x1, .i32⟩
  | .hbm, ⟨29, _⟩ => ⟨S65537x128, .f32⟩
  | .hbm, ⟨30, _⟩ => ⟨S65536x128, .f32⟩
  | .hbm, ⟨31, _⟩ => ⟨S1x128, .f32⟩
  | .hbm, ⟨32, _⟩ => ⟨S65536x128, .f32⟩
  | .hbm, ⟨33, _⟩ => ⟨S65536x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x8192x128, .f32⟩
  | .local _ .vmem, ⟨5, _⟩ => ⟨S1x8192x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S8192x128_S1x8192x128 : S8192x128.ShapeCasts S1x8192x128
  bcast_S_S65537x128 : S_.BroadcastsInDim S65537x128 (![] : Fin 0 → Fin S65537x128.rank)
  shapeCasts_S27x65536_S1769472 : S27x65536.ShapeCasts S1769472
  shapeCasts_S27x65536x128_S1769472x128 : S27x65536x128.ShapeCasts S1769472x128
  bcast_S_S1769472 : S_.BroadcastsInDim S1769472 (![] : Fin 0 → Fin S1769472.rank)
  bcast_S1769472_S1769472x1_0 : S1769472.BroadcastsInDim S1769472x1 (![0] : Fin 1 → Fin S1769472x1.rank)
  slices_S65537x128_S65536x128_0_0 : S65537x128.Slices ![0, 0] S65536x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  gather_S65536x128_S27x65536x1_S27x65536x128_2_0_n_n_0_2_1128_wf : GatherDims.WF S65536x128 S27x65536x1 S27x65536x128 [2] [0] [] [0] [] 2 ![1, 128]
  dot_S8192x128_S128x128_S8192x128_1_0_0_1_n_n_wf : DotDims.WF S8192x128 S128x128 S8192x128 [1] [0] [0] [1] [] []
  scatter_S65537x128_S1769472x1_S1769472x128_1_0_0_1_wf : ScatterDims.WF S65537x128 S1769472x1 S1769472x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S27x65536x128.size a
  hwx0_0 : ∀ i : grid0.Coords, EltTy.bits .bf16 = 32 ∨ (Rect.block (s := S27x65536x128) S1x8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S27x65536x128.size a
  hwx0_2 : ∀ i : grid0.Coords, EltTy.bits .f32 = 32 ∨ (Rect.block (s := S27x65536x128) S1x8192x128.size (cc0_transform_2 i) (hinb0_2 i)).WholeWords (EltTy.packing .f32)

variable [Facts₀]

def gather_S65536x128_S27x65536x1_S27x65536x128_2_0_n_n_0_2_1128 : GatherDims S65536x128 S27x65536x1 S27x65536x128 where
  offsetDims := [2]
  collapsedSliceDims := [0]
  operandBatchingDims := []
  startIndicesBatchingDims := []
  startIndexMap := [0]
  indexVectorDim := 2
  sliceSizes := ![1, 128]
  wf := gather_S65536x128_S27x65536x1_S27x65536x128_2_0_n_n_0_2_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S65537x128_S1769472x1_S1769472x128_1_0_0_1 : ScatterDims S65537x128 S1769472x1 S1769472x128 where
  updateWindowDims := [1]
  insertedWindowDims := [0]
  scatterDimsToOperandDims := [0]
  indexVectorDim := 1
  wf := scatter_S65537x128_S1769472x1_S1769472x128_1_0_0_1_wf

abbrev win0_0 : Pipeline.Window sig grid0 :=
  Pipeline.Window.ofSpec (Memref.whole main_v7) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S27x128x128 : Shape := ⟨3, ![27, 128, 128]⟩
abbrev S128 : Shape := ⟨1, ![128]⟩
abbrev S27x65536 : Shape := ⟨2, ![27, 65536]⟩
abbrev S_ : Shape := ⟨0, ![]⟩
abbrev S27x65536x1 : Shape := ⟨3, ![27, 65536, 1]⟩
abbrev S27x65536x128 : Shape := ⟨3, ![27, 65536, 128]⟩
abbrev S65537x128 : Shape := ⟨2, ![65537, 128]⟩
abbrev S1769472 : Shape := ⟨1, ![1769472]⟩
abbrev S1769472x128 : Shape := ⟨2, ![1769472, 128]⟩
abbrev S1769472x1 : Shape := ⟨2, ![1769472, 1]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S128, .f32⟩
  | .hbm, ⟨3, _⟩ => ⟨S27x65536, .i32⟩
  | .hbm, ⟨4, _⟩ => ⟨S27x65536, .i32⟩
  | .hbm, ⟨5, _⟩ => ⟨S_, .i32⟩
  | .hbm, ⟨6, _⟩ => ⟨S27x65536, .i32⟩
  | .hbm, ⟨7, _⟩ => ⟨S27x65536, .i1⟩
  | .hbm, ⟨8, _⟩ => ⟨S_, .i32⟩
  | .hbm, ⟨9, _⟩ => ⟨S27x65536, .i32⟩
  | .hbm, ⟨10, _⟩ => ⟨S27x65536, .i32⟩
  | .hbm, ⟨11, _⟩ => ⟨S27x65536, .i32⟩
  | .hbm, ⟨12, _⟩ => ⟨S27x65536x1, .i32⟩
  | .hbm, ⟨13, _⟩ => ⟨S27x65536x128, .f32⟩
  | .hbm, ⟨14, _⟩ => ⟨S27x65536x128, .f32⟩
  | .hbm, ⟨15, _⟩ => ⟨S_, .f32⟩
  | .hbm, ⟨16, _⟩ => ⟨S65537x128, .f32⟩
  | .hbm, ⟨17, _⟩ => ⟨S1769472, .i32⟩
  | .hbm, ⟨18, _⟩ => ⟨S1769472x128, .f32⟩
  | .hbm, ⟨19, _⟩ => ⟨S_, .i32⟩
  | .hbm, ⟨20, _⟩ => ⟨S1769472, .i32⟩
  | .hbm, ⟨21, _⟩ => ⟨S1769472, .i1⟩
  | .hbm, ⟨22, _⟩ => ⟨S_, .i32⟩
  | .hbm, ⟨23, _⟩ => ⟨S1769472, .i32⟩
  | .hbm, ⟨24, _⟩ => ⟨S1769472, .i32⟩
  | .hbm, ⟨25, _⟩ => ⟨S1769472, .i32⟩
  | .hbm, ⟨26, _⟩ => ⟨S1769472x1, .i32⟩
  | .hbm, ⟨27, _⟩ => ⟨S65537x128, .f32⟩
  | .hbm, ⟨28, _⟩ => ⟨S65536x128, .f32⟩
  | .hbm, ⟨29, _⟩ => ⟨S1x128, .f32⟩
  | .hbm, ⟨30, _⟩ => ⟨S65536x128, .f32⟩
  | .hbm, ⟨31, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S27x65536 : S_.BroadcastsInDim S27x65536 (![] : Fin 0 → Fin S27x65536.rank)
  bcast_S27x65536_S27x65536x1_0_1 : S27x65536.BroadcastsInDim S27x65536x1 (![0, 1] : Fin 2 → Fin S27x65536x1.rank)
  bcast_S_S65537x128 : S_.BroadcastsInDim S65537x128 (![] : Fin 0 → Fin S65537x128.rank)
  shapeCasts_S27x65536_S1769472 : S27x65536.ShapeCasts S1769472
  shapeCasts_S27x65536x128_S1769472x128 : S27x65536x128.ShapeCasts S1769472x128
  bcast_S_S1769472 : S_.BroadcastsInDim S1769472 (![] : Fin 0 → Fin S1769472.rank)
  bcast_S1769472_S1769472x1_0 : S1769472.BroadcastsInDim S1769472x1 (![0] : Fin 1 → Fin S1769472x1.rank)
  slices_S65537x128_S65536x128_0_0 : S65537x128.Slices ![0, 0] S65536x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  gather_S65536x128_S27x65536x1_S27x65536x128_2_0_n_n_0_2_1128_wf : GatherDims.WF S65536x128 S27x65536x1 S27x65536x128 [2] [0] [] [0] [] 2 ![1, 128]
  dot_S27x65536x128_S27x128x128_S27x65536x128_2_1_1_2_0_0_wf : DotDims.WF S27x65536x128 S27x128x128 S27x65536x128 [2] [1] [1] [2] [0] [0]
  scatter_S65537x128_S1769472x1_S1769472x128_1_0_0_1_wf : ScatterDims.WF S65537x128 S1769472x1 S1769472x128 [1] [0] [0] 1

variable [Facts₀]

def gather_S65536x128_S27x65536x1_S27x65536x128_2_0_n_n_0_2_1128 : GatherDims S65536x128 S27x65536x1 S27x65536x128 where
  offsetDims := [2]
  collapsedSliceDims := [0]
  operandBatchingDims := []
  startIndicesBatchingDims := []
  startIndexMap := [0]
  indexVectorDim := 2
  sliceSizes := ![1, 128]
  wf := gather_S65536x128_S27x65536x1_S27x65536x128_2_0_n_n_0_2_1128_wf
def dot_S27x65536x128_S27x128x128_S27x65536x128_2_1_1_2_0_0 : DotDims S27x65536x128 S27x128x128 S27x65536x128 where
  lhsContracting := [2]
  rhsContracting := [1]
  lhsNonContracting := [1]
  rhsNonContracting := [2]
  lhsBatch := [0]
  rhsBatch := [0]
  wf := dot_S27x65536x128_S27x128x128_S27x65536x128_2_1_1_2_0_0_wf
def scatter_S65537x128_S1769472x1_S1769472x128_1_0_0_1 : ScatterDims S65537x128 S1769472x1 S1769472x128 where
  updateWindowDims := [1]
  insertedWindowDims := [0]
  scatterDimsToOperandDims := [0]
  indexVectorDim := 1
  wf := scatter_S65537x128_S1769472x1_S1769472x128_1_0_0_1_wf

class Facts : Prop extends Facts₀ where

variable [Facts]
-- ==== Proof.Block.lean ====
/-
  One grid point's work. The body loads a block of gathered rows `x0 : [1, 8192, 128]` and one offset's
  weight matrix `x1 : [1, 128, 128]`, drops the leading unit axes, multiplies the two matrices into a zero
  accumulator and stores the product with the unit axis put back. At the ideal values the stored block is
  therefore, entry by entry, the plain sum of products over the contracted channel:
      stored (u, r, d) = ∑ k, x0 (0, r, k) * x1 (0, k, d).
-/
import proofs.«106461_j39393440038985_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.ShloMosaic.ValueIdx

/-! ## The matrix product's operand indices -/

/-- The left operand's row is the output's row. -/
theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
/-- Its column is the contracted channel. -/
theorem lhs_col (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row is the contracted channel. -/
theorem rhs_row (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- Its column is the output's column. -/
theorem rhs_col (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- A [8192, 128] × [128, 128] product into the zero accumulator, at (r, d): ∑ k, a (r, k) * b (k, d). -/
theorem product_apply (a : FVec Ideal S8192x128 .bf16) (b : FVec Ideal S128x128 .bf16) (r : Fin 8192) (d : Fin 128) :
    matmul dot_S8192x128_S128x128_S8192x128_1_0_0_1_n_n none a b (constant (F := Ideal) S8192x128 .f32 0x00000000#32) (ix2 r d)
      = ∑ k : Fin 128, a (ix2 r k) * b (ix2 k d) := by
  simp only [matmul]
  rw [Ideal.matmul_constant_zero_apply,
    ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r d)
      ((contrEquiv1 dot_S8192x128_S128x128_S8192x128_1_0_0_1_n_n 128 rfl rfl).symm k) = ix2 r k :=
    funext fun x => Fin.ext (by
      match x with
      | ⟨0, _⟩ => exact lhs_row _ _
      | ⟨1, _⟩ => exact (lhs_col _ _).trans hk)
  have er : dot_S8192x128_S128x128_S8192x128_1_0_0_1_n_n.rhsIdx (ix2 r d)
      ((contrEquiv1 dot_S8192x128_S128x128_S8192x128_1_0_0_1_n_n 128 rfl rfl).symm k) = ix2 k d :=
    funext fun x => Fin.ext (by
      match x with
      | ⟨0, _⟩ => exact (rhs_row _ _).trans hk
      | ⟨1, _⟩ => exact rhs_col _ _)
  rw [el, er]

/-! ## The stored block -/

/-- What the body stores, at (u, r, d): the sum over the channel k of gathered (0, r, k) times weight (0, k, d). -/
theorem stored_apply (x0 : Vec Ideal S1x8192x128 .bf16) (x1 : Vec Ideal S1x128x128 .bf16) (u : Fin 1) (r : Fin 8192) (d : Fin 128) :
    k0_pay1 (F := Ideal) x0 x1 (ix3 u r d) = ∑ k : Fin 128, x0 (ix3 (0 : Fin 1) r k) * x1 (ix3 (0 : Fin 1) k d) := by
  unfold k0_pay1
  refine (shapeCast_ab_1ab_apply _ shapeCasts_S8192x128_S1x8192x128 u r d).trans ?_
  refine (product_apply _ _ r d).trans ?_
  refine Finset.sum_congr rfl fun k _ => ?_
  rw [shapeCast_1ab_ab_apply x0 shapeCasts_S1x8192x128_S8192x128 r k, shapeCast_1ab_ab_apply x1 shapeCasts_S1x128x128_S128x128 k d]

end Cert.KernelIdeal.Bridge

end
-- ==== Proof.Spec.lean ====
/-
  The one non-trivial stage both programs share, as a function of its operands: for every kernel offset o,
  the product of that offset's gathered rows [65536, 128] with that offset's weight matrix [128, 128],
      contrib g w (o, p, d) = ∑ k, g (o, p, k) * w (o, k, d),
  a plain sum of products on the extended reals. The kernel computes it block by block on the matrix unit,
  the reference as one batched contraction; at the ideal values both are this sum, term for term.
-/
import Idealize.ShloMosaic.PureOps.Ideal
import Idealize.ShloMosaic.Lib.ValueIdx

noncomputable section

namespace Cert.Spec

open Idealize.ShloMosaic Idealize.ShloMosaic.ValueIdx

/-- The per-offset product of gathered rows and weights: at (o, p, d) the sum over the channel. -/
def contrib (g : (⟨3, ![27, 65536, 128]⟩ : Shape).Idx → EReal) (w : (⟨3, ![27, 128, 128]⟩ : Shape).Idx → EReal) :
    (⟨3, ![27, 65536, 128]⟩ : Shape).Idx → EReal :=
  fun i => ∑ k : Fin 128, g (ix3 (i 0) (i 1) k) * w (ix3 (i 0) k (i 2))

theorem contrib_apply (g : (⟨3, ![27, 65536, 128]⟩ : Shape).Idx → EReal) (w : (⟨3, ![27, 128, 128]⟩ : Shape).Idx → EReal)
    (o : Fin 27) (p : Fin 65536) (d : Fin 128) :
    contrib g w (ix3 o p d) = ∑ k : Fin 128, g (ix3 o p k) * w (ix3 o k d) := rfl

end Cert.Spec

end
-- ==== Proof.Contrib.lean ====
/-
  From blocks to the array. The grid has 27 × 8 points; point t = 8·o + q works on offset o and on rows
  q·8192 … q·8192 + 8191 of that offset's gathered rows, with the offset's whole weight matrix, and writes
  the same rows of the result back. The blocks tile the result, so after the last point the result array
  holds, at (o, p, d), the sum over the channel k of gathered (o, p, k) * weight (o, k, d) — one function
  of the two arrays the region was entered with.
-/
import proofs.«106461_j39393440038985_1_alg».proof.Proof.Gen.KernelIdeal.Frame
import proofs.«106461_j39393440038985_1_alg».proof.Proof.Block
import proofs.«106461_j39393440038985_1_alg».proof.Proof.Spec

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem
open Idealize.ShloMosaic.Pipeline (Dat)
open Cert.Spec (contrib contrib_apply)

variable (m : (ℓ : Loc nD τ sig) → Buf (Elt Ideal) ℓ)

theorem origin3 : (![0, 0, 0] : Fin 3 → Nat) = fun _ => 0 := funext fun a => by fin_cases a <;> rfl

/-- Where each window's block sits at point t: offset t / 8 for all three; row block t % 8 for the gathered rows and
    the result; the weight's and every last axis's block index 0. -/
theorem index_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0 :=
  (by decide +kernel : ∀ t : Fin grid0.N, _)

/-- The gathered-rows block at point t, entry (0, r, k), is the array's entry (t / 8, (t % 8)·8192 + r, k). -/
theorem gathered_block (c : Dev nD) (t : Fin cfg0.N) (r : Fin 8192) (k : Fin 128) (o : Fin 27) (p : Fin 65536)
    (ho : o.val = t.val / 8) (hp : p.val = t.val % 8 * 8192 + r.val) :
    iblk m c 0 t (ix3 (0 : Fin 1) r k) = V m c main_v7 (ix3 o p k) := by
  obtain ⟨e0, e1, e2, -⟩ := index_facts t
  show V m c main_v7 (((cfg0.win 0).blk t).view.emb (ix3 (0 : Fin 1) r k)) = V m c main_v7 (ix3 o p k)
  refine congrArg (V m c main_v7) ?_
  funext a; apply Fin.ext
  match a with
  | ⟨0, _⟩ => show win0_0.index t (0 : Fin 3) * 1 + 1 * 0 = o.val; omega
  | ⟨1, _⟩ => show win0_0.index t (1 : Fin 3) * 8192 + 1 * r.val = p.val; omega
  | ⟨2, _⟩ => show win0_0.index t (2 : Fin 3) * 128 + 1 * k.val = k.val; omega

/-- The weight block at point t, entry (0, k, d), is the array's entry (t / 8, k, d). -/
theorem weight_block (c : Dev nD) (t : Fin cfg0.N) (k d : Fin 128) (o : Fin 27) (ho : o.val = t.val / 8) :
    iblk m c 1 t (ix3 (0 : Fin 1) k d) = V m c main_v8 (ix3 o k d) := by
  obtain ⟨-, -, -, e0, e1, e2, -⟩ := index_facts t
  show V m c main_v8 (((cfg0.win 1).blk t).view.emb (ix3 (0 : Fin 1) k d)) = V m c main_v8 (ix3 o k d)
  refine congrArg (V m c main_v8) ?_
  funext a; apply Fin.ext
  match a with
  | ⟨0, _⟩ => show win0_1.index t (0 : Fin 3) * 1 + 1 * 0 = o.val; omega
  | ⟨1, _⟩ => show win0_1.index t (1 : Fin 3) * 128 + 1 * k.val = k.val; omega
  | ⟨2, _⟩ => show win0_1.index t (2 : Fin 3) * 128 + 1 * d.val = d.val; omega

/-- What point t writes back is block t of the per-offset product of the two arrays the region was entered with. -/
theorem flushed_eq (c : Dev nD) (t : Fin cfg0.N) :
    (dats m 0 c).flushed 2 t = ((cfg0.win 2).blk t).view.read (Elt Ideal) (contrib (V m c main_v7) (V m c main_v8)) := by
  show (cfg0.win 2).cut (grid0.coords t) ((dats m 0 c).after 2 t) = _
  rw [after0_2]
  unfold out0_2
  rw [View.canon_unit_zero origin3]
  simp only [View.ld_unit_zero (S := S1x8192x128) origin3, View.ld_unit_zero (S := S1x128x128) origin3]
  have ht : t.val < 216 := t.isLt
  obtain ⟨-, -, -, -, -, -, e0, e1, e2⟩ := index_facts t
  funext j
  obtain ⟨u, r, d, rfl⟩ : ∃ (u : Fin 1) (r : Fin 8192) (d : Fin 128), j = ix3 u r d := ⟨j 0, j 1, j 2, eq_ix3 j⟩
  show k0_pay1 (iblk m c 0 t) (iblk m c 1 t) (ix3 u r d)
    = contrib (V m c main_v7) (V m c main_v8) (((cfg0.win 2).blk t).view.emb (ix3 u r d))
  refine (stored_apply (iblk m c 0 t) (iblk m c 1 t) u r d).trans ?_
  have e : ((cfg0.win 2).blk t).view.emb (ix3 u r d)
      = ix3 (⟨t.val / 8, by omega⟩ : Fin 27) (⟨t.val % 8 * 8192 + r.val, by omega⟩ : Fin 65536) d := by
    funext a; apply Fin.ext
    have hu : u.val = 0 := by omega
    match a with
    | ⟨0, _⟩ => show win0_2.index t (0 : Fin 3) * 1 + 1 * u.val = t.val / 8; omega
    | ⟨1, _⟩ => show win0_2.index t (1 : Fin 3) * 8192 + 1 * r.val = t.val % 8 * 8192 + r.val; omega
    | ⟨2, _⟩ => show win0_2.index t (2 : Fin 3) * 128 + 1 * d.val = d.val; omega
  rw [e, contrib_apply]
  refine Finset.sum_congr rfl fun k _ => ?_
  rw [gathered_block m c t r k ⟨t.val / 8, by omega⟩ ⟨t.val % 8 * 8192 + r.val, by omega⟩ rfl rfl,
    weight_block m c t k d ⟨t.val / 8, by omega⟩ rfl]

/-- An index of the result array is in point t's block iff each coordinate is in the block's range on its axis. -/
theorem mem_block (t : Fin cfg0.N) (i : S27x65536x128.Idx) :
    i ∈ ((cfg0.win 2).blk t).view.set ↔ ∀ a : Fin 3, win0_2.index t a * S1x8192x128.size a ≤ (i a).val
      ∧ (i a).val < win0_2.index t a * S1x8192x128.size a + S1x8192x128.size a := by
  show i ∈ ((View.whole main_v9).slice (win0_2.rect t)).set ↔ _
  rw [View.set_slice_whole, Rect.mem_set_unit]
  exact Iff.rfl

/-- Every index (o, p, d) of the result is in the block of point 8·o + p / 8192. -/
theorem covered (i : S27x65536x128.Idx) :
    ∃ t : Fin cfg0.N, (cfg0.win 2).flush t = true ∧ i ∈ ((cfg0.win 2).blk t).view.set := by
  have h0 : (i 0).val < 27 := (i 0).isLt
  have h1 : (i 1).val < 65536 := (i 1).isLt
  have h2 : (i 2).val < 128 := (i 2).isLt
  obtain ⟨t, ht⟩ : ∃ t : Fin cfg0.N, t.val = (i 0).val * 8 + (i 1).val / 8192 :=
    ⟨⟨(i 0).val * 8 + (i 1).val / 8192, by show _ < grid0.N; rw [N_0]; omega⟩, rfl⟩
  obtain ⟨-, -, -, -, -, -, e0, e1, e2⟩ := index_facts t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 128 ≤ (i 2).val ∧ (i 2).val < win0_2.index t (2 : Fin 3) * 128 + 128; omega

/-- The result array after the last point: the per-offset product of the gathered rows and the weights. -/
theorem result_array (c : Dev nD) :
    (dats m 0 c).arrAt 2 cfg0.N = contrib (V m c main_v7) (V m c main_v8) :=
  (dats m 0 c).arrAt_eq_of_cover 2 (contrib (V m c main_v7) (V m c main_v8)) (fun t _ => flushed_eq m c t) covered

end Cert.KernelIdeal.Bridge

end
-- ==== Proof.HostSide.lean ====
/-
  The kernel program around its region, at the ideal values.
  Before the region: the features are rounded to bf16 (the identity on extended reals) and their rows are
  gathered at the signed row words (a negative word counts from the end); the weights are rounded likewise.
  The region then leaves the per-offset product of these two arrays in its result (Contrib.lean).
  After the region: the products' rows are scatter-added into 65537 zero rows at the signed output words,
  the dummy last row is dropped and the bias is added to every row. So the program's result is
      tail (contrib (gathered features in_idx) (weights weight)) bias out_idx.
-/
import proofs.«106461_j39393440038985_1_alg».proof.Proof.Contrib
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem Idealize.ShloMosaic.StableHlo
open Cert.Spec (contrib)

variable (m : (ℓ : Loc nD τ sig) → Buf (Elt Ideal) ℓ) (ρ : Dev nD → PrngReg)

/-! ## Before the region -/

/-- The row words a gather reads at: a negative word has 65536 added, and each word becomes a one-entry index vector. -/
def rowWords (x3 : (⟨S27x65536, .i32⟩ : BufTy).Contents (Elt Ideal)) : (⟨S27x65536x1, .i32⟩ : BufTy).Contents (Elt Ideal) :=
  broadcastInDim S27x65536x1 ![0, 1] bcast_S27x65536_S27x65536x1_0_1
    (select (cmpi .slt x3 (broadcastInDim S27x65536 ![] bcast_S_S27x65536 (constantI S_ 32 0#32)))
      (addi x3 (broadcastInDim S27x65536 ![] bcast_S_S27x65536 (constantI S_ 32 65536#32))) x3)

/-- The gathered rows: for every offset and pair, the (rounded) feature row at the pair's row word. -/
def gathered (x0 : (⟨S65536x128, .f32⟩ : BufTy).Contents (Elt Ideal)) (x3 : (⟨S27x65536, .i32⟩ : BufTy).Contents (Elt Ideal)) :
    (⟨S27x65536x128, .bf16⟩ : BufTy).Contents (Elt Ideal) :=
  Host.gather gather_S65536x128_S27x65536x1_S27x65536x128_2_0_n_n_0_2_1128
    (((truncf (F := Ideal) .bf16 · bitsLt_bf16_f32) : (⟨S65536x128, .f32⟩ : BufTy).Contents (Elt Ideal) → (⟨S65536x128, .bf16⟩ : BufTy).Contents (Elt Ideal)) x0)
    (rowWords x3)

/-- The (rounded) weights. -/
def weights (x1 : (⟨S27x128x128, .f32⟩ : BufTy).Contents (Elt Ideal)) : (⟨S27x128x128, .bf16⟩ : BufTy).Contents (Elt Ideal) :=
  ((truncf (F := Ideal) .bf16 · bitsLt_bf16_f32) : (⟨S27x128x128, .f32⟩ : BufTy).Contents (Elt Ideal) → (⟨S27x128x128, .bf16⟩ : BufTy).Contents (Elt Ideal)) x1

/-- The region finds the rounded weights in its second operand. -/
theorem entry_weights (c : Dev nD) :
    V m c main_v8 = weights (m ((c.tc : Thread nD τ).loc main_arg1)) := by
  show StableHlo.after hostOps0 (fun b => m (c, b)) (Proc.devRef .tc main_v8) = _
  after_results
  rfl

/-- The region finds the gathered rows in its first operand. -/
theorem entry_gathered (c : Dev nD) :
    V m c main_v7 = gathered (m ((c.tc : Thread nD τ).loc main_arg0)) (m ((c.tc : Thread nD τ).loc main_arg3)) := by
  show StableHlo.after hostOps0 (fun b => m (c, b)) (Proc.devRef .tc main_v7) = _
  after_results
  rfl

/-! ## After the region -/

/-- From the per-offset products y to the program's result: the 27 × 65536 product rows, flattened, are
    scatter-added into 65537 zero rows at the signed output words (a negative word has 65537 added), the
    first 65536 rows are kept, and the bias is added along every row. -/
def tail (y : (⟨S27x65536x128, .f32⟩ : BufTy).Contents (Elt Ideal)) (x2 : (⟨S128, .f32⟩ : BufTy).Contents (Elt Ideal))
    (x4 : (⟨S27x65536, .i32⟩ : BufTy).Contents (Elt Ideal)) : (⟨S65536x128, .f32⟩ : BufTy).Contents (Elt Ideal) :=
  addf (F := Ideal)
    (extractStridedSlice S65536x128 ![0, 0]
      (Host.scatterAdd (F := Ideal) scatter_S65537x128_S1769472x1_S1769472x128_1_0_0_1
        (broadcastInDim S65537x128 ![] bcast_S_S65537x128 (constant (F := Ideal) S_ .f32 0x00000000#32))
        (broadcastInDim S1769472x1 ![0] bcast_S1769472_S1769472x1_0
          (select (cmpi .slt (shapeCast _ x4 shapeCasts_S27x65536_S1769472) (broadcastInDim S1769472 ![] bcast_S_S1769472 (constantI S_ 32 0#32)))
            (addi (shapeCast _ x4 shapeCasts_S27x65536_S1769472) (broadcastInDim S1769472 ![] bcast_S_S1769472 (constantI S_ 32 65537#32)))
            (shapeCast _ x4 shapeCasts_S27x65536_S1769472)))
        (shapeCast _ y shapeCasts_S27x65536x128_S1769472x128))
      slices_S65537x128_S65536x128_0_0)
    (broadcastInDim S65536x128 ![0, 1] bcast_S1x128_S65536x128_0_1 (broadcastInDim S1x128 ![1] bcast_S128_S1x128_1 x2))

set_option maxHeartbeats 2000000 in
/-- The operations after the region, run from any buffer contents W, leave in the result buffer the tail of W's
    region result, bias and output words. -/
theorem tail_after (W : Valuation τ sig (Elt Ideal)) :
    StableHlo.after hostOps1 W (Proc.devRef .tc main_v23)
      = tail (W (Proc.devRef .tc main_v9)) (W (Proc.devRef .tc main_arg2)) (W (Proc.devRef .tc main_arg4)) := by
  after_results
  rfl

/-- What the program leaves in its result buffer, as a function of the arguments it was launched with. -/
theorem result_value (c : Dev nD) :
    Pipeline.afterTail₀ cfgs (dats m) 0 (V0 m) [hostOps1] c main_v23
      = tail (contrib (gathered (m ((c.tc : Thread nD τ).loc main_arg0)) (m ((c.tc : Thread nD τ).loc main_arg3)))
            (weights (m ((c.tc : Thread nD τ).loc main_arg1))))
          (m ((c.tc : Thread nD τ).loc main_arg2)) (m ((c.tc : Thread nD τ).loc main_arg4)) := by
  unfold Pipeline.afterTail₀
  refine (tail_after _).trans ?_
  have h9 : Pipeline.withArrays spec0 c (V0 m c) (fun w => (dats m 0 c).arrAt w cfg0.N) (Proc.devRef .tc main_v9)
      = contrib (gathered (m ((c.tc : Thread nD τ).loc main_arg0)) (m ((c.tc : Thread nD τ).loc main_arg3)))
          (weights (m ((c.tc : Thread nD τ).loc main_arg1))) :=
    (Pipeline.withArrays_arr spec0 launch0.win.arr_inj c _ _ 2).trans
      ((result_array m c).trans (by rw [entry_gathered, entry_weights]))
  have h2 : Pipeline.withArrays spec0 c (V0 m c) (fun w => (dats m 0 c).arrAt w cfg0.N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  have h4 : Pipeline.withArrays spec0 c (V0 m c) (fun w => (dats m 0 c).arrAt w cfg0.N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  exact congr (congr (congrArg tail h9) h2) h4

/-- Every weakly fair execution of the kernel program terminates with its result buffer at that value and its
    arguments as launched. -/
theorem run : θ_run defs (onTc (τ := τ) (main (F := Ideal))) ⟨m, fun _ => 0, ρ⟩ fun r => ∀ c : Dev nD,
      r.2.mem ((c.tc : Thread nD τ).loc main_v23)
        = tail (contrib (gathered (m ((c.tc : Thread nD τ).loc main_arg0)) (m ((c.tc : Thread nD τ).loc main_arg3)))
              (weights (m ((c.tc : Thread nD τ).loc main_arg1))))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.RefProduct.lean ====
/-
  The reference's batched contraction, read at an index. jnp's einsum 'kpc,kcd->kpd' lowers to one
  dot_general that batches over the offset and contracts the channel; at the ideal values its entry at
  (o, p, d) is the sum over the channel k of gathered (o, p, k) * weight (o, k, d): the per-offset product.
-/
import proofs.«106461_j39393440038985_1_alg».proof.Proof.Gen.ReferenceIdeal.Read
import proofs.«106461_j39393440038985_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The left operand is read at (o, p, k). -/
theorem left_index (i : S27x65536x128.Idx) (k : Fin 128) : lidx_main_v7 i k = ix3 (i 0) (i 1) k :=
  funext fun a => by match a with | ⟨0, _⟩ => rfl | ⟨1, _⟩ => rfl | ⟨2, _⟩ => rfl

/-- The right operand is read at (o, k, d). -/
theorem right_index (i : S27x65536x128.Idx) (k : Fin 128) : ridx_main_v7 i k = ix3 (i 0) k (i 2) :=
  funext fun a => by match a with | ⟨0, _⟩ => rfl | ⟨1, _⟩ => rfl | ⟨2, _⟩ => rfl

/-- The reference's contraction is the per-offset product of its gathered rows and the weights. -/
theorem product_eq (x0 : (⟨S65536x128, .f32⟩ : BufTy).Contents (Elt Ideal)) (x1 : (⟨S27x128x128, .f32⟩ : BufTy).Contents (Elt Ideal))
    (x3 : (⟨S27x65536, .i32⟩ : BufTy).Contents (Elt Ideal)) :
    val_main_v7 (F := Ideal) x0 x1 x3 = Cert.Spec.contrib (val_main_v6 (F := Ideal) x0 x3) x1 := by
  funext i
  rw [val_main_v7_apply]
  show _ = ∑ k : Fin 128, val_main_v6 (F := Ideal) x0 x3 (ix3 (i 0) (i 1) k) * x1 (ix3 (i 0) k (i 2))
  refine Finset.sum_congr rfl fun k _ => ?_
  rw [left_index, right_index]
  rfl

end Cert.ReferenceIdeal.RefValue

end
-- ==== Proof.lean ====
/-
  A submanifold sparse convolution written two ways, equal at the ideal values.
  Both programs gather feature rows at a rulebook's input rows (27 offsets × 65536 pairs), multiply each
  offset's gathered rows [65536, 128] by that offset's weight matrix [128, 128], scatter-add the product rows
  into 65537 zero rows at the rulebook's output rows, drop the dummy last row and add the bias.
  They differ only in the middle stage: the kernel rounds both operands to bf16 and multiplies 8192 rows at a
  time on the matrix unit, one grid point per (offset, row block), where the reference contracts everything in
  one batched dot_general. On the extended reals a change of float format is the identity and both products
  are, entry by entry, the same sum over the channel k of gathered (o, p, k) * weight (o, k, d), term for term
  — no reordering, so nothing is asked of the inputs' finiteness. The stages before and after the product are
  the same operations on both sides.
  The ideal pass rewrote nothing, so the idealized kernel is the kernel's own text and `preserves` is `True`.
-/
import proofs.«106461_j39393440038985_1_alg».proof.Defs
import proofs.«106461_j39393440038985_1_alg».proof.Proof.Gen.Kernel
import proofs.«106461_j39393440038985_1_alg».proof.Proof.Gen.Kernel.Skeleton
import proofs.«106461_j39393440038985_1_alg».proof.Proof.Gen.Kernel.Launch
import proofs.«106461_j39393440038985_1_alg».proof.Proof.Gen.Kernel.Points
import proofs.«106461_j39393440038985_1_alg».proof.Proof.Gen.Kernel.Frame
import proofs.«106461_j39393440038985_1_alg».proof.Proof.Gen.KernelIdeal
import proofs.«106461_j39393440038985_1_alg».proof.Proof.Gen.KernelIdeal.Skeleton
import proofs.«106461_j39393440038985_1_alg».proof.Proof.Gen.KernelIdeal.Launch
import proofs.«106461_j39393440038985_1_alg».proof.Proof.Gen.KernelIdeal.Points
import proofs.«106461_j39393440038985_1_alg».proof.Proof.Gen.KernelIdeal.Frame
import proofs.«106461_j39393440038985_1_alg».proof.Proof.Gen.ReferenceIdeal
import proofs.«106461_j39393440038985_1_alg».proof.Proof.Gen.Pre_finite_inputs
import proofs.«106461_j39393440038985_1_alg».proof.Proof.Gen.ReferenceIdeal.Run
import proofs.«106461_j39393440038985_1_alg».proof.Proof.Gen.ReferenceIdeal.Read
import proofs.«106461_j39393440038985_1_alg».proof.Proof.HostSide
import proofs.«106461_j39393440038985_1_alg».proof.Proof.RefProduct
import Idealize.ShloMosaic.Adequacy
import Idealize.ShloMosaic.Init

noncomputable section

namespace Cert.Proof

open Idealize.ShloMosaic Idealize.ShloMosaic.TcCoe Idealize.SL.Sem

/-- The reference's result, stage by stage, is the kernel program's: its contraction is the per-offset product
    of its gathered rows and the weights, its gathered rows are the kernel's (rounding to bf16 changes nothing),
    and the scatter-add, the slice and the bias are the same operations of the same operands. -/
theorem value_eq (x0 : (⟨Cert.KernelIdeal.S65536x128, .f32⟩ : BufTy).Contents (Elt Ideal))
    (x1 : (⟨Cert.KernelIdeal.S27x128x128, .f32⟩ : BufTy).Contents (Elt Ideal))
    (x2 : (⟨Cert.KernelIdeal.S128, .f32⟩ : BufTy).Contents (Elt Ideal))
    (x3 x4 : (⟨Cert.KernelIdeal.S27x65536, .i32⟩ : BufTy).Contents (Elt Ideal)) :
    Cert.ReferenceIdeal.Read.val_main_v21 (F := Ideal) x0 x1 x2 x3 x4
      = Cert.KernelIdeal.Bridge.tail
          (Cert.Spec.contrib (Cert.KernelIdeal.Bridge.gathered x0 x3) (Cert.KernelIdeal.Bridge.weights x1)) x2 x4 :=
  congrArg (fun y => Cert.KernelIdeal.Bridge.tail y x2 x4) (Cert.ReferenceIdeal.RefValue.product_eq x0 x1 x3)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel program's value of its launch arguments, which the
    reference's value of the same arguments equals (`value_eq`). -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v21_eq _ _ _ _ _).trans (value_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
